-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S_ : Shape := ⟨0, ![]⟩

class Facts : Prop where
  bcast_S_S16x128x64 : S_.BroadcastsInDim S16x128x64 (![] : Fin 0 → Fin S16x128x64.rank)
  reducesTo_S16x128x64_S_d0_1_2 : S16x128x64.ReducesTo [0, 1, 2] S_
  h_S_ : 0 < S_.numel
  bcast_S_S16x128x128x3 : S_.BroadcastsInDim S16x128x128x3 (![] : Fin 0 → Fin S16x128x128x3.rank)
  reducesTo_S16x128x128x3_S_d0_1_2_3 : S16x128x128x3.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x128x64 .f32) (main_arg1 : FVec F S16x128x128x3 .f32) (main_arg2 : FVec F S128x128 .f32) (main_arg3 : FVec F S128 .f32) : IVec S_ 1 :=
  let main_v0 : FVec F S16x128x64 .f32 := Host.absf main_arg0
  let main_cst : FVec F S_ .f32 := constant S_ .f32 0x7F800000#32
  let main_v1 : FVec F S16x128x64 .f32 := broadcastInDim S16x128x64 ![] bcast_S_S16x128x64 main_cst
  let main_v2 : IVec S16x128x64 1 := cmpf .olt main_v0 main_v1
  let main_c : IVec S_ 1 := constantI S_ 1 1#1
  let main_v3 : IVec S_ 1 := (fun x v => Host.reduce IntOp.andi x v reducesTo_S16x128x64_S_d0_1_2 h_S_) main_v2 main_c
  let main_v4 : FVec F S16x128x128x3 .f32 := Host.absf main_arg1
  let main_cst_0 : FVec F S_ .f32 := constant S_ .f32 0x7F800000#32
  let main_v5 : FVec F S16x128x128x3 .f32 := broadcastInDim S16x128x128x3 ![] bcast_S_S16x128x128x3 main_cst_0
  let main_v6 : IVec S16x128x128x3 1 := cmpf .olt main_v4 main_v5
  let main_c_1 : IVec S_ 1 := constantI S_ 1 1#1
  let main_v7 : IVec S_ 1 := (fun x v => Host.reduce IntOp.andi x v reducesTo_S16x128x128x3_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S16x128x128x3x128 : Shape := ⟨5, ![16, 128, 128, 3, 128]⟩
abbrev S1x16x64 : Shape := ⟨3, ![1, 16, 64]⟩
abbrev S1x128x64 : Shape := ⟨3, ![1, 128, 64]⟩
abbrev S1x16x128x3 : Shape := ⟨4, ![1, 16, 128, 3]⟩
abbrev S1x16x128x3x128 : Shape := ⟨5, ![1, 16, 128, 3, 128]⟩
abbrev S64x128 : Shape := ⟨2, ![64, 128]⟩
abbrev S16x64 : Shape := ⟨2, ![16, 64]⟩
abbrev S128x64 : Shape := ⟨2, ![128, 64]⟩
abbrev S16x128 : Shape := ⟨2, ![16, 128]⟩
abbrev S16x1x128 : Shape := ⟨3, ![16, 1, 128]⟩
abbrev S1x128x128 : Shape := ⟨3, ![1, 128, 128]⟩
abbrev S16x128x128 : Shape := ⟨3, ![16, 128, 128]⟩
abbrev S1x1x128 : Shape := ⟨3, ![1, 1, 128]⟩
abbrev S16x128x3 : Shape := ⟨3, ![16, 128, 3]⟩
abbrev S16x128x1x128 : Shape := ⟨4, ![16, 128, 1, 128]⟩
abbrev S16x128x3x1 : Shape := ⟨4, ![16, 128, 3, 1]⟩
abbrev S16x128x3x128 : Shape := ⟨4, ![16, 128, 3, 128]⟩

abbrev nBuf : Space → Nat
  | .hbm => 5
  | .vmem => 10
  | .smem => 0
  | _ => 0

abbrev bufTy : (tb : Table) → Fin (tcTables nBuf tb) → BufTy
  | .hbm, ⟨0, _⟩ => ⟨S16x128x64, .f32⟩
  | .hbm, ⟨1, _⟩ => ⟨S16x128x128x3, .f32⟩
  | .hbm, ⟨2, _⟩ => ⟨S128x128, .f32⟩
  | .hbm, ⟨3, _⟩ => ⟨S128, .f32⟩
  | .hbm, ⟨4, _⟩ => ⟨S16x128x128x3x128, .f32⟩
  | .local _ .vmem, ⟨0, _⟩ => ⟨S1x16x64, .f32⟩
  | .local _ .vmem, ⟨1, _⟩ => ⟨S1x16x64, .f32⟩
  | .local _ .vmem, ⟨2, _⟩ => ⟨S1x128x64, .f32⟩
  | .local _ .vmem, ⟨3, _⟩ => ⟨S1x128x64, .f32⟩
  | .local _ .vmem, ⟨4, _⟩ => ⟨S1x16x128x3, .f32⟩
  | .local _ .vmem, ⟨5, _⟩ => ⟨S1x16x128x3, .f32⟩
  | .local _ .vmem, ⟨6, _⟩ => ⟨S128x128, .f32⟩
  | .local _ .vmem, ⟨7, _⟩ => ⟨S128, .f32⟩
  | .local _ .vmem, ⟨8, _⟩ => ⟨S1x16x128x3x128, .f32⟩
  | .local _ .vmem, ⟨9, _⟩ => ⟨S1x16x128x3x128, .f32⟩
  | _, _ => ⟨S16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x128x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S128x128_S64x128_0_0 : ∀ a, (![0, 0] : Fin 2 → Nat) a + S64x128.size a ≤ S128x128.size a
  h_S64x128 : 0 < S64x128.numel
  inb_S128x128_S64x128_64_0 : ∀ a, (![64, 0] : Fin 2 → Nat) a + S64x128.size a ≤ S128x128.size a
  inb_S1x16x64_S1x16x64_0_0_0 : ∀ a, (![0, 0, 0] : Fin 3 → Nat) a + S1x16x64.size a ≤ S1x16x64.size a
  h_S1x16x64 : 0 < S1x16x64.numel
  shapeCasts_S1x16x64_S16x64 : S1x16x64.ShapeCasts S16x64
  bitsLt_bf16_f32 : FTy.bits .bf16 < FTy.bits .f32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S128_S128_0 : ∀ a, (![0] : Fin 1 → Nat) a + S128.size a ≤ S128.size a
  h_S128 : 0 < S128.numel
  shapeCasts_S16x128_S16x1x128 : S16x128.ShapeCasts S16x1x128
  shapeCasts_S128x128_S1x128x128 : S128x128.ShapeCasts S1x128x128
  broadcasts_S16x1x128_S16x128x128 : S16x1x128.Broadcasts S16x128x128
  broadcasts_S1x128x128_S16x128x128 : S1x128x128.Broadcasts S16x128x128
  shapeCasts_S128_S1x1x128 : S128.ShapeCasts S1x1x128
  broadcasts_S1x1x128_S16x128x128 : S1x1x128.Broadcasts S16x128x128
  inb_S1x16x128x3_S1x16x128x3_0_0_0_0 : ∀ a, (![0, 0, 0, 0] : Fin 4 → Nat) a + S1x16x128x3.size a ≤ S1x16x128x3.size a
  h_S1x16x128x3 : 0 < S1x16x128x3.numel
  shapeCasts_S1x16x128x3_S16x128x3 : S1x16x128x3.ShapeCasts S16x128x3
  shapeCasts_S16x128x128_S16x128x1x128 : S16x128x128.ShapeCasts S16x128x1x128
  shapeCasts_S16x128x3_S16x128x3x1 : S16x128x3.ShapeCasts S16x128x3x1
  broadcasts_S16x128x1x128_S16x128x3x128 : S16x128x1x128.Broadcasts S16x128x3x128
  broadcasts_S16x128x3x1_S16x128x3x128 : S16x128x3x1.Broadcasts S16x128x3x128
  inb_S1x16x128x3x128_S1x16x128x3x128_0_0_0_0_0 : ∀ a, (![0, 0, 0, 0, 0] : Fin 5 → Nat) a + S1x16x128x3x128.size a ≤ S1x16x128x3x128.size a
  h_S1x16x128x3x128 : 0 < S1x16x128x3x128.numel
  shapeCasts_S1x16x128x3x128_S16x128x3x128 : S1x16x128x3x128.ShapeCasts S16x128x3x128
  shapeCasts_S16x128x3x128_S1x16x128x3x128 : S16x128x3x128.ShapeCasts S1x16x128x3x128
  dot_S16x64_S64x128_S16x128_1_0_0_1_n_n_wf : DotDims.WF S16x64 S64x128 S16x128 [1] [0] [0] [1] [] []
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64.size a ≤ S16x128x64.size a
  hwx0_0 : ∀ i : grid0.Coords, EltTy.bits .f32 = 32 ∨ (Rect.block (s := S16x128x64) S1x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S16x128x64.size a
  hwx0_1 : ∀ i : grid0.Coords, EltTy.bits .f32 = 32 ∨ (Rect.block (s := S16x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x3.size a ≤ S16x128x128x3.size a
  hwx0_2 : ∀ i : grid0.Coords, EltTy.bits .f32 = 32 ∨ (Rect.block (s := S16x128x128x3) S1x16x128x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x128x3x128.size a ≤ S16x128x128x3x128.size a
  hwx0_5 : ∀ i : grid0.Coords, EltTy.bits .f32 = 32 ∨ (Rect.block (s := S16x128x128x3x128) S1x16x128x3x128.size (cc0_transform_5 i) (hinb0_5 i)).WholeWords (EltTy.packing .f32)

variable [Facts₀]

def dot_S16x64_S64x128_S16x128_1_0_0_1_n_n : DotDims S16x64 S64x128 S16x128 where
  lhsContracting := [1]
  rhsContracting := [0]
  lhsNonContracting := [0]
  rhsNonContracting := [1]
  lhsBatch := []
  rhsBatch := []
  wf := dot_S16x64_S64x128_S16x128_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_arg0) S1x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x16x128x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x16x128x3x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S64x128 : Shape := ⟨2, ![64, 128]⟩
abbrev S16x128x128 : Shape := ⟨3, ![16, 128, 128]⟩
abbrev S16x128x1x128 : Shape := ⟨4, ![16, 128, 1, 128]⟩
abbrev S16x1x128x128 : Shape := ⟨4, ![16, 1, 128, 128]⟩
abbrev S16x128x128x128 : Shape := ⟨4, ![16, 128, 128, 128]⟩
abbrev S1x1x1x128 : Shape := ⟨4, ![1, 1, 1, 128]⟩
abbrev S16x128x128x1x128 : Shape := ⟨5, ![16, 128, 128, 1, 128]⟩
abbrev S16x128x128x3x1 : Shape := ⟨5, ![16, 128, 128, 3, 1]⟩
abbrev S16x128x128x3x128 : Shape := ⟨5, ![16, 128, 128, 3, 128]⟩

abbrev nBuf : Space → Nat
  | .hbm => 21
  | .vmem => 0
  | .smem => 0
  | _ => 0

abbrev bufTy : (tb : Table) → Fin (tcTables nBuf tb) → BufTy
  | .hbm, ⟨0, _⟩ => ⟨S16x128x64, .f32⟩
  | .hbm, ⟨1, _⟩ => ⟨S16x128x128x3, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S16x128x128, .f32⟩
  | .hbm, ⟨7, _⟩ => ⟨S16x128x128, .f32⟩
  | .hbm, ⟨8, _⟩ => ⟨S16x128x1x128, .f32⟩
  | .hbm, ⟨9, _⟩ => ⟨S16x1x128x128, .f32⟩
  | .hbm, ⟨10, _⟩ => ⟨S16x128x128x128, .f32⟩
  | .hbm, ⟨11, _⟩ => ⟨S16x128x128x128, .f32⟩
  | .hbm, ⟨12, _⟩ => ⟨S16x128x128x128, .f32⟩
  | .hbm, ⟨13, _⟩ => ⟨S1x1x1x128, .f32⟩
  | .hbm, ⟨14, _⟩ => ⟨S16x128x128x128, .f32⟩
  | .hbm, ⟨15, _⟩ => ⟨S16x128x128x128, .f32⟩
  | .hbm, ⟨16, _⟩ => ⟨S16x128x128x1x128, .f32⟩
  | .hbm, ⟨17, _⟩ => ⟨S16x128x128x3x1, .f32⟩
  | .hbm, ⟨18, _⟩ => ⟨S16x128x128x3x128, .f32⟩
  | .hbm, ⟨19, _⟩ => ⟨S16x128x128x3x128, .f32⟩
  | .hbm, ⟨20, _⟩ => ⟨S16x128x128x3x128, .f32⟩
  | _, _ => ⟨S16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  slices_S128x128_S64x128_0_0 : S128x128.Slices ![0, 0] S64x128
  slices_S128x128_S64x128_64_0 : S128x128.Slices ![64, 0] S64x128
  bcast_S16x128x128_S16x128x1x128_0_1_3 : S16x128x128.BroadcastsInDim S16x128x1x128 (![0, 1, 3] : Fin 3 → Fin S16x128x1x128.rank)
  bcast_S16x128x128_S16x1x128x128_0_2_3 : S16x128x128.BroadcastsInDim S16x1x128x128 (![0, 2, 3] : Fin 3 → Fin S16x1x128x128.rank)
  bcast_S16x128x1x128_S16x128x128x128_0_1_2_3 : S16x128x1x128.BroadcastsInDim S16x128x128x128 (![0, 1, 2, 3] : Fin 4 → Fin S16x128x128x128.rank)
  bcast_S16x1x128x128_S16x128x128x128_0_1_2_3 : S16x1x128x128.BroadcastsInDim S16x128x128x128 (![0, 1, 2, 3] : Fin 4 → Fin S16x128x128x128.rank)
  bcast_S128_S1x1x1x128_3 : S128.BroadcastsInDim S1x1x1x128 (![3] : Fin 1 → Fin S1x1x1x128.rank)
  bcast_S1x1x1x128_S16x128x128x128_0_1_2_3 : S1x1x1x128.BroadcastsInDim S16x128x128x128 (![0, 1, 2, 3] : Fin 4 → Fin S16x128x128x128.rank)
  bcast_S16x128x128x128_S16x128x128x1x128_0_1_2_4 : S16x128x128x128.BroadcastsInDim S16x128x128x1x128 (![0, 1, 2, 4] : Fin 4 → Fin S16x128x128x1x128.rank)
  bcast_S16x128x128x3_S16x128x128x3x1_0_1_2_3 : S16x128x128x3.BroadcastsInDim S16x128x128x3x1 (![0, 1, 2, 3] : Fin 4 → Fin S16x128x128x3x1.rank)
  bcast_S16x128x128x1x128_S16x128x128x3x128_0_1_2_3_4 : S16x128x128x1x128.BroadcastsInDim S16x128x128x3x128 (![0, 1, 2, 3, 4] : Fin 5 → Fin S16x128x128x3x128.rank)
  bcast_S16x128x128x3x1_S16x128x128x3x128_0_1_2_3_4 : S16x128x128x3x1.BroadcastsInDim S16x128x128x3x128 (![0, 1, 2, 3, 4] : Fin 5 → Fin S16x128x128x3x128.rank)
  dot_S16x128x64_S64x128_S16x128x128_2_0_01_1_n_n_wf : DotDims.WF S16x128x64 S64x128 S16x128x128 [2] [0] [0, 1] [1] [] []

variable [Facts₀]

def dot_S16x128x64_S64x128_S16x128x128_2_0_01_1_n_n : DotDims S16x128x64 S64x128 S16x128x128 where
  lhsContracting := [2]
  rhsContracting := [0]
  lhsNonContracting := [0, 1]
  rhsNonContracting := [1]
  lhsBatch := []
  rhsBatch := []
  wf := dot_S16x128x64_S64x128_S16x128x128_2_0_01_1_n_n_wf

class Facts : Prop extends Facts₀ where

variable [Facts]
-- ==== Proof.LibSharedLaunch.lean ====
/-
  The run of a program that is ONE pipelined region whose windows may read one array through several windows.

  When two input windows stage blocks of the same array, the array's points-to cannot be handed whole to each;
  it is dealt between them before the first grid point, each window holding a share of it (for two windows: the
  two halves of the full share, `halves`). How it is dealt is the one thing such a run asks beyond a run over
  pairwise distinct arrays (`hdealt`). `run_bare` is that run for the plainest kernels — no semaphore, scratch
  or generator use of the body's own, every unscoped buffer some window's array — so that nothing bypasses the
  region and the region's invariant is empty: every weakly fair execution ends, faulting nowhere, with every
  window's array at the write-backs of all points over its entry contents.
-/
import Idealize.ShloMosaic.Lib.Pipeline.Frame

noncomputable section

namespace Cert.Lib.SharedLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose cellOf)

variable {nD : Nat} {τ : Topo} {sig : RefSig} {Val : EltTy → Type}

/-- A buffer held whole is held in two halves, one for each of two readers. -/
theorem halves {Ix : Type} [DecidableEq Ix] {Name : Type} [DecidableEq Name] {U : Type} [URA U] {Lvl : Type}
    (ℓ : Loc nD τ sig) (f : Buf Val ℓ) :
    ((ℓ ↦{fullShare} f) : sProp (MT nD τ sig Ix Val Name U Lvl)) ⊢ iprop((ℓ ↦{fullShare.left} f) ∗ (ℓ ↦{fullShare.right} f)) :=
  (pointsTo_share (PosShare.mem_left_op_right fullShare)).1

variable {Λ₀ : Idealize.SL.Sem.Labels} {P : Type} [Fintype P] [DecidableEq P] [∀ e, Nonempty (Val e)]

local notation "𝕄" => MT nD τ sig Unit Val ℕ (UR sig nD τ) ℕ

set_option backward.isDefEq.respectTransparency.types false in
/-- The run. `hdealt`: the buffers behind the windows' arrays, each held whole at the region-entry contents `V`,
    make the proof data's arrays at their shares. `hrest`, `hscratch`: no unscoped buffer bypasses the region and
    the core has no scoped buffer beside the staging buffers. -/
theorem run_bare (cfgs : P → Cfg sig Λ₀) (dats : (p : P) → (c : Dev nD) → Dat τ Val Unit ℕ (UR sig nD τ) ℕ (cfgs p) c) (p : P)
    (hinj : Function.Injective (cellOf (nD := nD) (τ := τ) cfgs)) (hw : Pipeline.WinFacts₀ (cfgs p).spec)
    (hne : ∀ w : Fin (cfgs p).W, 0 < ((cfgs p).spec w).block.numel) (harr : ∀ w, ((cfgs p).spec w).arr.IsWhole)
    (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, BodyObligationLoose (dats p c) defs₀ 𝒱₀ () Set.univ) (howed : ∀ c t, (dats p c).owed t = 0)
    (V : (c : Dev nD) → (b : Ref sig .tc) → Buf Val ((c.tc : Thread nD τ).loc b))
    (hmain : Pipeline.HMain (Ix := Unit) (Name := ℕ) (U := UR sig nD τ) (Lvl := ℕ) cfgs p defs₀ 𝒱₀ m main V)
    (hdealt : ∀ c, (Pipeline.arrBufs (cfgs p).spec c (V c) : sProp 𝕄) ⊢ (dats p c).arrays ((dats p c).arrAt · 0))
    (hrest : ∀ c, (Pipeline.unscopedRest (cfgs p).spec c (V c) : sProp 𝕄) = BI.emp)
    (hscratch : ∀ c, (Pipeline.scopedRest (cfgs p).spec c : sProp 𝕄) = BI.emp)
    (hΦ : ∀ c t, (dats p c).Φ t = BI.emp) :
    θ_run (Pipeline.defs (fun q => Cfg.toPCfg (Val := Val) (cfgs q)) defs₀) (onTc main) (s₀ m g)
      (fun r => ∀ (c : Dev nD) (w : Fin (cfgs p).W),
        r.2.mem (((cfgs p).spec w).arr.view.loc (c.tc : Thread nD τ)) = (dats p c).arrAt w (cfgs p).N) :=
  Pipeline.θ_run_region_noSem_shared cfgs dats () hinj p hw
    (emb₁ : Emb (UR sig nD τ) (MT nD τ sig Unit Val ℕ (UR sig nD τ) ℕ)) defs₀ 𝒱₀ m g main
    (hbody := hbody) (hne := hne) (harr := harr) (hstage := hstage) (howed := howed)
    (u₀ := initOf (Pipeline.cells cfgs hinj) (Pipeline.launchToks cfgs hinj)) (hu₀ := BI.Entails.refl _)
    (V := V) (hmain := hmain) (hsplit := hdealt)
    (X := fun _ => iprop(emp)) (Y := fun _ => iprop(emp)) (Z := fun _ => iprop(emp))
    (hX := fun c => by rw [hrest]; iintro -; isplitr <;> iempintro)
    (hin := fun c => by rw [hscratch, hΦ]; iintro ⟨-, -⟩; iempintro)
    (hout := fun c => by rw [hscratch, hΦ]; iintro -; isplitr <;> iempintro)
    (QY := fun _ _ => True)
    (hY := fun c s' => by
      iintro ⟨-, -, HSI⟩; imodintro
      isplitr; · ipureintro; trivial
      iexact HSI)
    (hQ := fun _ h c w => (h c).1 w)

end Cert.Lib.SharedLaunch

end
-- ==== Proof.KernelLaunched.lean ====
/-
  The run of `Kernel`'s one pipelined region, at any float instance, with the kernel's OUTPUT array named.

  The region walks a 16 × 8 grid. Point (b, i) is handed five input blocks — rows 16·i … 16·i+15 of
  batch b of the scalar features, ALL 128 rows of batch b of the same feature array (two windows on one
  array), rows 16·i … of batch b of the distances, the whole weight matrix and the whole bias — and
  writes one block of the result, rows 16·i … of batch b. Nothing is carried from point to point, and
  the kernel names no semaphore or scratch of its own, so the region's invariant is empty.

  Two windows read ONE array, so its points-to is dealt between them in halves before the first point
  (`arrays_dealt`) — the only place this run differs from one over pairwise distinct arrays; the launch
  itself is the general one for such regions (Proof/LibSharedLaunch.lean). Every
  staging buffer is held whole whatever the arrays' shares, so the body's triple (`body_runs`) and the
  per-point obligation (`each_point`) are the ordinary ones: the five input buffers hold their blocks,
  fetched at this point or not, and the body leaves the output buffer at one store of a pure function of
  them (`left`).
-/
import proofs.«145904_j6451040878944_1_alg».proof.Proof.Gen.Kernel.Launch
import proofs.«145904_j6451040878944_1_alg».proof.Proof.Gen.Kernel.Skeleton
import proofs.«145904_j6451040878944_1_alg».proof.Proof.Gen.Kernel.Points
import proofs.«145904_j6451040878944_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: as launched, since the program is the region alone. -/
abbrev V (c : Dev nD) (b : Ref sig .tc) : Buf (Elt F) ((c : Thread nD τ).loc b) := m ((c : Thread nD τ).loc b)

/-- The program up to its region: nothing. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body finds in an input buffer: the window's block, fetched at this point or not

An input whose index map ignores a grid axis is not fetched again while that axis advances; its buffer
then still holds the block of the point before, which is this point's block because the index did not move. -/

section Found
variable {c : Dev nD} (dat : Dat τ (Elt F) Unit ℕ (UR sig nD τ) ℕ cfg0 c)

theorem found0 (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4 (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Found

/-! ## The body's accesses and what it leaves -/

/-- Rows 0‥63 of the weight matrix (the half that meets a row's own features), -/
abbrev rWa : Rect S128x128 := Rect.unit (s := S128x128) ![0, 0] S64x128.size inb_S128x128_S64x128_0_0
/-- rows 64‥127 (the half that meets the partner row's features), -/
abbrev rWb : Rect S128x128 := Rect.unit (s := S128x128) ![64, 0] S64x128.size inb_S128x128_S64x128_64_0
/-- and each other buffer whole. -/
abbrev rXi : Rect S1x16x64 := Rect.unit (s := S1x16x64) ![0, 0, 0] S1x16x64.size inb_S1x16x64_S1x16x64_0_0_0
abbrev rXf : Rect S1x128x64 := Rect.unit (s := S1x128x64) ![0, 0, 0] S1x128x64.size inb_S1x128x64_S1x128x64_0_0_0
abbrev rB : Rect S128 := Rect.unit (s := S128) ![0] S128.size inb_S128_S128_0
abbrev rD : Rect S1x16x128x3 := Rect.unit (s := S1x16x128x3) ![0, 0, 0, 0] S1x16x128x3.size inb_S1x16x128x3_S1x16x128x3_0_0_0_0
abbrev rO : Rect S1x16x128x3x128 := Rect.unit (s := S1x16x128x3x128) ![0, 0, 0, 0, 0] S1x16x128x3x128.size inb_S1x16x128x3x128_S1x16x128x3x128_0_0_0_0_0

/-- What the body leaves in the output buffer, from the five input buffers' contents (own rows, all rows,
    distances, weights, bias): its one store, of the whole block. -/
def left (xi : Vec F S1x16x64 .f32) (xf : Vec F S1x128x64 .f32) (ds : Vec F S1x16x128x3 .f32) (wt : Vec F S128x128 .f32)
    (bs : Vec F S128 .f32) : Vec F S1x16x128x3x128 .f32 :=
  View.canon [⟨rO, k0_pay1 (View.ld wt rWa) (View.ld wt rWb) (View.ld xi rXi) (View.ld xf rXf) (View.ld bs rB) (View.ld ds rD)⟩]

/-- The one store covers the buffer. -/
theorem left_covers (p0 : Vec F S1x16x128x3x128 .f32) (y : S1x16x128x3x128.Idx) :
    ∃ pc ∈ ([⟨rO, p0⟩] : List (View.Piece (Elt F) S1x16x128x3x128 .f32)), y ∈ pc.1.set :=
  View.cover_of_tiled [⟨rO, p0⟩] S1x16x128x3x128.size (by rfl) y

set_option maxHeartbeats 1000000 in
/-- The body on whole staging buffers, the inputs' at read contents and the output's at anything, runs to a
    state with the inputs' as they were and the output's at `left` of them. (It also loads the output buffer
    before storing into it; the value is not used.) -/
theorem body_runs (c : Dev nD) (E : Set ℕ) (i : grid0.Coords)
    (arg2 : Memref sig .tc .vmem S1x16x64 .f32) (harg2 : arg2.IsWhole) (arg3 : Memref sig .tc .vmem S1x128x64 .f32) (harg3 : arg3.IsWhole)
    (arg4 : Memref sig .tc .vmem S1x16x128x3 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S1x16x128x3x128 .f32) (harg7 : arg7.IsWhole)
    (xi : Vec F S1x16x64 .f32) (xf : Vec F S1x128x64 .f32) (ds : Vec F S1x16x128x3 .f32) (wt : Vec F S128x128 .f32) (bs : Vec F S128 .f32)
    (K : PUnit → sProp 𝕄) :
    iprop(owns (c : Thread nD τ) arg2 fullShare xi ∗ owns (c : Thread nD τ) arg3 fullShare xf ∗ owns (c : Thread nD τ) arg4 fullShare ds
        ∗ owns (c : Thread nD τ) arg5 fullShare wt ∗ owns (c : Thread nD τ) arg6 fullShare bs ∗ (∃ d, owns (c : Thread nD τ) arg7 fullShare d)
        ∗ (iprop(owns (c : Thread nD τ) arg2 fullShare xi ∗ owns (c : Thread nD τ) arg3 fullShare xf ∗ owns (c : Thread nD τ) arg4 fullShare ds
            ∗ owns (c : Thread nD τ) arg5 fullShare wt ∗ owns (c : Thread nD τ) arg6 fullShare bs
            ∗ owns (c : Thread nD τ) arg7 fullShare (left xi xf ds wt bs)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (left_covers _)

/-! ## The proof data -/

/-- On core `c`: the arrays as launched; after the body at point `t` each input's buffer at its block and the
    output's at `left` of the five blocks; no invariant; nothing owed. The feature array is read through
    windows 0 and 1, which hold a half of it each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left (iblk m c 0 t) (iblk m c 1 t) (iblk m c 2 t) (iblk m c 3 t) (iblk m c 4 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = left (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  found0 m (dats m 0 c) (A_eq m c 0) (after0 m c) t d
theorem before1 (c : Dev nD) (t : Fin cfg0.N) (d) : (dats m 0 c).before 1 t d = iblk m c 1 t :=
  found1 m (dats m 0 c) (A_eq m c 1) (after1 m c) t d
theorem before2 (c : Dev nD) (t : Fin cfg0.N) (d) : (dats m 0 c).before 2 t d = iblk m c 2 t :=
  found2 m (dats m 0 c) (A_eq m c 2) (after2 m c) t d
theorem before3 (c : Dev nD) (t : Fin cfg0.N) (d) : (dats m 0 c).before 3 t d = iblk m c 3 t :=
  found3 m (dats m 0 c) (A_eq m c 3) (after3 m c) t d
theorem before4 (c : Dev nD) (t : Fin cfg0.N) (d) : (dats m 0 c).before 4 t d = iblk m c 4 t :=
  found4 m (dats m 0 c) (A_eq m c 4) (after4 m c) t d

/-! ## The obligation at a point -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem at_point (c : Dev nD) (t : Fin cfg0.N) :
    handed m c t ⊢ wp frame (wpE (defs₀ (F := F)) Variants.none c none) Set.univ (bodyAt0 t) (fun _ => returned m c t) := by
  unfold handed returned bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem each_point (c : Dev nD) : BodyObligation (dats (F := F) m 0 c) (defs₀ (F := F)) Variants.none () Set.univ := fun t => by
  rw [bigSep_W0, bigSep_W0]
  exact at_point m c t

/-! ## The shares and the entry contents, window by window -/

theorem share0 (c : Dev nD) : (dats m 0 c).share 0 = fullShare.left := by
  unfold Dat.share; split
  · rename_i h; exact absurd h (by decide)
  · dsimp only [dats]
theorem share1 (c : Dev nD) : (dats m 0 c).share 1 = fullShare.right := by
  unfold Dat.share; split
  · rename_i h; exact absurd h (by decide)
  · dsimp only [dats]
theorem share2 (c : Dev nD) : (dats m 0 c).share 2 = fullShare := by
  unfold Dat.share; split
  · rfl
  · dsimp only [dats]
theorem share3 (c : Dev nD) : (dats m 0 c).share 3 = fullShare := by
  unfold Dat.share; split
  · rfl
  · dsimp only [dats]
theorem share4 (c : Dev nD) : (dats m 0 c).share 4 = fullShare := by
  unfold Dat.share; split
  · rfl
  · dsimp only [dats]
theorem share5 (c : Dev nD) : (dats m 0 c).share 5 = fullShare := by
  unfold Dat.share; split
  · rfl
  · dsimp only [dats]

theorem entry (c : Dev nD) (w : Fin cfg0.W) : (dats m 0 c).arrAt w 0 = V m c (Pipeline.arrRef spec0 w) := A_eq m c w
/-! ## The shared array dealt between its two windows -/

/-- The five buffers behind the six windows' arrays, each held whole, are the six arrays as the proof data
    holds them: the feature array's points-to is split into its two halves, one per window on it. -/
theorem arrays_dealt (c : Dev nD) :
    (Pipeline.arrBufs spec0 c (V m c) : sProp 𝕄) ⊢ (dats m 0 c).arrays ((dats m 0 c).arrAt · 0) := by
  unfold Pipeline.arrBufs Dat.arrays
  rw [bigSep_W0,
    bigSep_eq_bigSepL_of_eq [main_arg0, main_arg1, main_arg2, main_arg3, main_v0] (by decide) (by decide)]
  simp only [share0, share1, share2, share3, share4, share5, entry, View.set_whole]
  have halves : ((((c.tc : Thread nD τ).loc main_arg0) ↦{fullShare} V m c main_arg0) : sProp 𝕄)
      ⊢ iprop((((c.tc : Thread nD τ).loc main_arg0) ↦{fullShare.left} V m c main_arg0) ∗ (((c.tc : Thread nD τ).loc main_arg0) ↦{fullShare.right} V m c main_arg0)) :=
    Cert.Lib.SharedLaunch.halves _ _
  refine (show _ ⊢ iprop(((((c.tc : Thread nD τ).loc main_arg0) ↦{fullShare.left} V m c main_arg0) ∗ (((c.tc : Thread nD τ).loc main_arg0) ↦{fullShare.right} V m c main_arg0))
      ∗ (((c.tc : Thread nD τ).loc main_arg1) ↦{fullShare} V m c main_arg1)
      ∗ (((c.tc : Thread nD τ).loc main_arg2) ↦{fullShare} V m c main_arg2) ∗ (((c.tc : Thread nD τ).loc main_arg3) ↦{fullShare} V m c main_arg3)
      ∗ (((c.tc : Thread nD τ).loc main_v0) ↦{fullShare} V m c main_v0)) from BI.sep_mono halves (BI.Entails.refl _)).trans ?_
  iintro ⟨⟨H0a, H0b⟩, H1, H2, H3, H4⟩
  isplitl [H0a]; · iexact H0a
  isplitl [H0b]; · iexact H0b
  isplitl [H1]; · iexact H1
  isplitl [H2]; · iexact H2
  isplitl [H3]; · iexact H3
  iexact H4

/-! ## The run -/

/-- What the run ends with: every window's array at what the write-backs made of its entry contents. -/
def Ends (r : PUnit × MemSt nD τ sig (Elt F)) : Prop :=
  ∀ (c : Dev nD) (w : Fin cfg0.W), r.2.mem ((cfg0.win w).arr.view.loc (c : Thread nD τ)) = (dats m 0 c).arrAt w cfg0.N

set_option backward.isDefEq.respectTransparency.types false in
/-- At the compiled mesh, from any memory with zero counters, every weakly fair execution of the program ends,
    faulting nowhere, with every array of the pipeline at `arrAt … N`: the run of a region whose windows may share
    an array, given how the shared array is dealt (`arrays_dealt`); nothing bypasses the region and the core has
    no scoped buffer beside the staging buffers. -/
theorem run_main : θ_run defs (onTc (τ := τ) (main (F := F))) (s₀ m ρ) (Ends m) :=
  Cert.Lib.SharedLaunch.run_bare cfgs (dats m) (0 : Fin 1) cellOf_inj winFacts₀0 block_pos0 arr_whole0 stage_whole0
    defs₀ Variants.none m ρ main (fun c => (each_point m c).loose) (fun _ _ => rfl) (V m) (hmain m Variants.none)
    (arrays_dealt m) (fun c => unscopedRest0_eq c (V m c)) (fun c => scopedRest0_eq c) (fun _ _ => rfl)

/-- An input's array ends as launched. -/
theorem kept (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c 0).trans (kept m c 0 rfl), (h c 2).trans (kept m c 2 rfl),
      (h c 3).trans (kept m c 3 rfl), (h c 4).trans (kept m c 4 rfl)⟩) (run_main m ρ)

/-- The same run with the result array named: it ends at the write-backs of all 128 points over its entry contents. -/
theorem run_named : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c 5, (h c 0).trans (kept m c 0 rfl), (h c 2).trans (kept m c 2 rfl),
      (h c 3).trans (kept m c 3 rfl), (h c 4).trans (kept m c 4 rfl)⟩) (run_main m ρ)

end Cert.Kernel.Launched

end
-- ==== Proof.KernelIdealLaunched.lean ====
/-
  The run of `KernelIdeal`'s one pipelined region, at any float instance, with the kernel's OUTPUT array named.

  The region walks a 16 × 8 grid. Point (b, i) is handed five input blocks — rows 16·i … 16·i+15 of
  batch b of the scalar features, ALL 128 rows of batch b of the same feature array (two windows on one
  array), rows 16·i … of batch b of the distances, the whole weight matrix and the whole bias — and
  writes one block of the result, rows 16·i … of batch b. Nothing is carried from point to point, and
  the kernel names no semaphore or scratch of its own, so the region's invariant is empty.

  Two windows read ONE array, so its points-to is dealt between them in halves before the first point
  (`arrays_dealt`) — the only place this run differs from one over pairwise distinct arrays; the launch
  itself is the general one for such regions (Proof/LibSharedLaunch.lean). Every
  staging buffer is held whole whatever the arrays' shares, so the body's triple (`body_runs`) and the
  per-point obligation (`each_point`) are the ordinary ones: the five input buffers hold their blocks,
  fetched at this point or not, and the body leaves the output buffer at one store of a pure function of
  them (`left`).
-/
import proofs.«145904_j6451040878944_1_alg».proof.Proof.Gen.KernelIdeal.Launch
import proofs.«145904_j6451040878944_1_alg».proof.Proof.Gen.KernelIdeal.Skeleton
import proofs.«145904_j6451040878944_1_alg».proof.Proof.Gen.KernelIdeal.Points
import proofs.«145904_j6451040878944_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: as launched, since the program is the region alone. -/
abbrev V (c : Dev nD) (b : Ref sig .tc) : Buf (Elt F) ((c : Thread nD τ).loc b) := m ((c : Thread nD τ).loc b)

/-- The program up to its region: nothing. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body finds in an input buffer: the window's block, fetched at this point or not

An input whose index map ignores a grid axis is not fetched again while that axis advances; its buffer
then still holds the block of the point before, which is this point's block because the index did not move. -/

section Found
variable {c : Dev nD} (dat : Dat τ (Elt F) Unit ℕ (UR sig nD τ) ℕ cfg0 c)

theorem found0 (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4 (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Found

/-! ## The body's accesses and what it leaves -/

/-- Rows 0‥63 of the weight matrix (the half that meets a row's own features), -/
abbrev rWa : Rect S128x128 := Rect.unit (s := S128x128) ![0, 0] S64x128.size inb_S128x128_S64x128_0_0
/-- rows 64‥127 (the half that meets the partner row's features), -/
abbrev rWb : Rect S128x128 := Rect.unit (s := S128x128) ![64, 0] S64x128.size inb_S128x128_S64x128_64_0
/-- and each other buffer whole. -/
abbrev rXi : Rect S1x16x64 := Rect.unit (s := S1x16x64) ![0, 0, 0] S1x16x64.size inb_S1x16x64_S1x16x64_0_0_0
abbrev rXf : Rect S1x128x64 := Rect.unit (s := S1x128x64) ![0, 0, 0] S1x128x64.size inb_S1x128x64_S1x128x64_0_0_0
abbrev rB : Rect S128 := Rect.unit (s := S128) ![0] S128.size inb_S128_S128_0
abbrev rD : Rect S1x16x128x3 := Rect.unit (s := S1x16x128x3) ![0, 0, 0, 0] S1x16x128x3.size inb_S1x16x128x3_S1x16x128x3_0_0_0_0
abbrev rO : Rect S1x16x128x3x128 := Rect.unit (s := S1x16x128x3x128) ![0, 0, 0, 0, 0] S1x16x128x3x128.size inb_S1x16x128x3x128_S1x16x128x3x128_0_0_0_0_0

/-- What the body leaves in the output buffer, from the five input buffers' contents (own rows, all rows,
    distances, weights, bias): its one store, of the whole block. -/
def left (xi : Vec F S1x16x64 .f32) (xf : Vec F S1x128x64 .f32) (ds : Vec F S1x16x128x3 .f32) (wt : Vec F S128x128 .f32)
    (bs : Vec F S128 .f32) : Vec F S1x16x128x3x128 .f32 :=
  View.canon [⟨rO, k0_pay1 (View.ld wt rWa) (View.ld wt rWb) (View.ld xi rXi) (View.ld xf rXf) (View.ld bs rB) (View.ld ds rD)⟩]

/-- The one store covers the buffer. -/
theorem left_covers (p0 : Vec F S1x16x128x3x128 .f32) (y : S1x16x128x3x128.Idx) :
    ∃ pc ∈ ([⟨rO, p0⟩] : List (View.Piece (Elt F) S1x16x128x3x128 .f32)), y ∈ pc.1.set :=
  View.cover_of_tiled [⟨rO, p0⟩] S1x16x128x3x128.size (by rfl) y

set_option maxHeartbeats 1000000 in
/-- The body on whole staging buffers, the inputs' at read contents and the output's at anything, runs to a
    state with the inputs' as they were and the output's at `left` of them. (It also loads the output buffer
    before storing into it; the value is not used.) -/
theorem body_runs (c : Dev nD) (E : Set ℕ) (i : grid0.Coords)
    (arg2 : Memref sig .tc .vmem S1x16x64 .f32) (harg2 : arg2.IsWhole) (arg3 : Memref sig .tc .vmem S1x128x64 .f32) (harg3 : arg3.IsWhole)
    (arg4 : Memref sig .tc .vmem S1x16x128x3 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S1x16x128x3x128 .f32) (harg7 : arg7.IsWhole)
    (xi : Vec F S1x16x64 .f32) (xf : Vec F S1x128x64 .f32) (ds : Vec F S1x16x128x3 .f32) (wt : Vec F S128x128 .f32) (bs : Vec F S128 .f32)
    (K : PUnit → sProp 𝕄) :
    iprop(owns (c : Thread nD τ) arg2 fullShare xi ∗ owns (c : Thread nD τ) arg3 fullShare xf ∗ owns (c : Thread nD τ) arg4 fullShare ds
        ∗ owns (c : Thread nD τ) arg5 fullShare wt ∗ owns (c : Thread nD τ) arg6 fullShare bs ∗ (∃ d, owns (c : Thread nD τ) arg7 fullShare d)
        ∗ (iprop(owns (c : Thread nD τ) arg2 fullShare xi ∗ owns (c : Thread nD τ) arg3 fullShare xf ∗ owns (c : Thread nD τ) arg4 fullShare ds
            ∗ owns (c : Thread nD τ) arg5 fullShare wt ∗ owns (c : Thread nD τ) arg6 fullShare bs
            ∗ owns (c : Thread nD τ) arg7 fullShare (left xi xf ds wt bs)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (left_covers _)

/-! ## The proof data -/

/-- On core `c`: the arrays as launched; after the body at point `t` each input's buffer at its block and the
    output's at `left` of the five blocks; no invariant; nothing owed. The feature array is read through
    windows 0 and 1, which hold a half of it each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left (iblk m c 0 t) (iblk m c 1 t) (iblk m c 2 t) (iblk m c 3 t) (iblk m c 4 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = left (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  found0 m (dats m 0 c) (A_eq m c 0) (after0 m c) t d
theorem before1 (c : Dev nD) (t : Fin cfg0.N) (d) : (dats m 0 c).before 1 t d = iblk m c 1 t :=
  found1 m (dats m 0 c) (A_eq m c 1) (after1 m c) t d
theorem before2 (c : Dev nD) (t : Fin cfg0.N) (d) : (dats m 0 c).before 2 t d = iblk m c 2 t :=
  found2 m (dats m 0 c) (A_eq m c 2) (after2 m c) t d
theorem before3 (c : Dev nD) (t : Fin cfg0.N) (d) : (dats m 0 c).before 3 t d = iblk m c 3 t :=
  found3 m (dats m 0 c) (A_eq m c 3) (after3 m c) t d
theorem before4 (c : Dev nD) (t : Fin cfg0.N) (d) : (dats m 0 c).before 4 t d = iblk m c 4 t :=
  found4 m (dats m 0 c) (A_eq m c 4) (after4 m c) t d

/-! ## The obligation at a point -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem at_point (c : Dev nD) (t : Fin cfg0.N) :
    handed m c t ⊢ wp frame (wpE (defs₀ (F := F)) Variants.none c none) Set.univ (bodyAt0 t) (fun _ => returned m c t) := by
  unfold handed returned bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem each_point (c : Dev nD) : BodyObligation (dats (F := F) m 0 c) (defs₀ (F := F)) Variants.none () Set.univ := fun t => by
  rw [bigSep_W0, bigSep_W0]
  exact at_point m c t

/-! ## The shares and the entry contents, window by window -/

theorem share0 (c : Dev nD) : (dats m 0 c).share 0 = fullShare.left := by
  unfold Dat.share; split
  · rename_i h; exact absurd h (by decide)
  · dsimp only [dats]
theorem share1 (c : Dev nD) : (dats m 0 c).share 1 = fullShare.right := by
  unfold Dat.share; split
  · rename_i h; exact absurd h (by decide)
  · dsimp only [dats]
theorem share2 (c : Dev nD) : (dats m 0 c).share 2 = fullShare := by
  unfold Dat.share; split
  · rfl
  · dsimp only [dats]
theorem share3 (c : Dev nD) : (dats m 0 c).share 3 = fullShare := by
  unfold Dat.share; split
  · rfl
  · dsimp only [dats]
theorem share4 (c : Dev nD) : (dats m 0 c).share 4 = fullShare := by
  unfold Dat.share; split
  · rfl
  · dsimp only [dats]
theorem share5 (c : Dev nD) : (dats m 0 c).share 5 = fullShare := by
  unfold Dat.share; split
  · rfl
  · dsimp only [dats]

theorem entry (c : Dev nD) (w : Fin cfg0.W) : (dats m 0 c).arrAt w 0 = V m c (Pipeline.arrRef spec0 w) := A_eq m c w
/-! ## The shared array dealt between its two windows -/

/-- The five buffers behind the six windows' arrays, each held whole, are the six arrays as the proof data
    holds them: the feature array's points-to is split into its two halves, one per window on it. -/
theorem arrays_dealt (c : Dev nD) :
    (Pipeline.arrBufs spec0 c (V m c) : sProp 𝕄) ⊢ (dats m 0 c).arrays ((dats m 0 c).arrAt · 0) := by
  unfold Pipeline.arrBufs Dat.arrays
  rw [bigSep_W0,
    bigSep_eq_bigSepL_of_eq [main_arg0, main_arg1, main_arg2, main_arg3, main_v0] (by decide) (by decide)]
  simp only [share0, share1, share2, share3, share4, share5, entry, View.set_whole]
  have halves : ((((c.tc : Thread nD τ).loc main_arg0) ↦{fullShare} V m c main_arg0) : sProp 𝕄)
      ⊢ iprop((((c.tc : Thread nD τ).loc main_arg0) ↦{fullShare.left} V m c main_arg0) ∗ (((c.tc : Thread nD τ).loc main_arg0) ↦{fullShare.right} V m c main_arg0)) :=
    Cert.Lib.SharedLaunch.halves _ _
  refine (show _ ⊢ iprop(((((c.tc : Thread nD τ).loc main_arg0) ↦{fullShare.left} V m c main_arg0) ∗ (((c.tc : Thread nD τ).loc main_arg0) ↦{fullShare.right} V m c main_arg0))
      ∗ (((c.tc : Thread nD τ).loc main_arg1) ↦{fullShare} V m c main_arg1)
      ∗ (((c.tc : Thread nD τ).loc main_arg2) ↦{fullShare} V m c main_arg2) ∗ (((c.tc : Thread nD τ).loc main_arg3) ↦{fullShare} V m c main_arg3)
      ∗ (((c.tc : Thread nD τ).loc main_v0) ↦{fullShare} V m c main_v0)) from BI.sep_mono halves (BI.Entails.refl _)).trans ?_
  iintro ⟨⟨H0a, H0b⟩, H1, H2, H3, H4⟩
  isplitl [H0a]; · iexact H0a
  isplitl [H0b]; · iexact H0b
  isplitl [H1]; · iexact H1
  isplitl [H2]; · iexact H2
  isplitl [H3]; · iexact H3
  iexact H4

/-! ## The run -/

/-- What the run ends with: every window's array at what the write-backs made of its entry contents. -/
def Ends (r : PUnit × MemSt nD τ sig (Elt F)) : Prop :=
  ∀ (c : Dev nD) (w : Fin cfg0.W), r.2.mem ((cfg0.win w).arr.view.loc (c : Thread nD τ)) = (dats m 0 c).arrAt w cfg0.N

set_option backward.isDefEq.respectTransparency.types false in
/-- At the compiled mesh, from any memory with zero counters, every weakly fair execution of the program ends,
    faulting nowhere, with every array of the pipeline at `arrAt … N`: the run of a region whose windows may share
    an array, given how the shared array is dealt (`arrays_dealt`); nothing bypasses the region and the core has
    no scoped buffer beside the staging buffers. -/
theorem run_main : θ_run defs (onTc (τ := τ) (main (F := F))) (s₀ m ρ) (Ends m) :=
  Cert.Lib.SharedLaunch.run_bare cfgs (dats m) (0 : Fin 1) cellOf_inj winFacts₀0 block_pos0 arr_whole0 stage_whole0
    defs₀ Variants.none m ρ main (fun c => (each_point m c).loose) (fun _ _ => rfl) (V m) (hmain m Variants.none)
    (arrays_dealt m) (fun c => unscopedRest0_eq c (V m c)) (fun c => scopedRest0_eq c) (fun _ _ => rfl)

/-- An input's array ends as launched. -/
theorem kept (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c 0).trans (kept m c 0 rfl), (h c 2).trans (kept m c 2 rfl),
      (h c 3).trans (kept m c 3 rfl), (h c 4).trans (kept m c 4 rfl)⟩) (run_main m ρ)

/-- The same run with the result array named: it ends at the write-backs of all 128 points over its entry contents. -/
theorem run_named : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c 5, (h c 0).trans (kept m c 0 rfl), (h c 2).trans (kept m c 2 rfl),
      (h c 3).trans (kept m c 3 rfl), (h c 4).trans (kept m c 4 rfl)⟩) (run_main m ρ)

end Cert.KernelIdeal.Launched

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.BodyEntry.lean ====
/-
  The kernel body's one stored value, read at one entry, at exact arithmetic.

  The body is handed a 16-row tile `xi` of one batch's features, all 128 rows `xf` of that batch, the two 64-row
  halves `wa`, `wb` of the weights, the bias `bs` and the tile's distances `ds`. Every layout step it takes — a unit
  axis dropped or inserted, a stack repeated along a new axis — only renames coordinates, and a change of float
  format is the identity, so entry (p, q, r, k) of the stored block is

      ((Σ_f xi(p, f) · wa(f, k))  +  (Σ_f xf(q, f) · wb(f, k))  +  bs(k)) · ds(p, q, r).

  Each renaming is one small lemma below (a cast by comparing row-major positions, a repetition by reading the
  operand's unit axes at 0); `stored_entry` chains them.
-/
import proofs.«145904_j6451040878944_1_alg».proof.Proof.Gen.KernelIdeal.Skeleton
import proofs.«145904_j6451040878944_1_alg».proof.Proof.LibDotEntry
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen
open Idealize.ShloMosaic Idealize.ShloMosaic.TcCoe Idealize.SL.Sem Idealize.ShloMosaic.ValueIdx

variable {α : Type}

/-! ## Unit axes dropped and inserted -/

/-- [1,16,64] read as [16,64]. -/
theorem tile_rows (v : S1x16x64.Idx → α) (p : Fin 16) (f : Fin 64) :
    shapeCast S16x64 v shapeCasts_S1x16x64_S16x64 (ix2 p f) = v (ix3 0 p f) :=
  shapeCast_apply v _ _ _ (by
    rw [Shape.rowMajor_val_three, Shape.rowMajor_val_two]
    show ((0 * 16 + p.val) * 64 + f.val) = p.val * 64 + f.val; omega)

/-- [1,128,64] read as [128,64]. -/
theorem all_rows (v : S1x128x64.Idx → α) (q : Fin 128) (f : Fin 64) :
    shapeCast S128x64 v shapeCasts_S1x128x64_S128x64 (ix2 q f) = v (ix3 0 q f) :=
  shapeCast_apply v _ _ _ (by
    rw [Shape.rowMajor_val_three, Shape.rowMajor_val_two]
    show ((0 * 128 + q.val) * 64 + f.val) = q.val * 64 + f.val; omega)

/-- [16,128] read as [16,1,128]. -/
theorem own_mid (v : S16x128.Idx → α) (p : Fin 16) (k : Fin 128) :
    shapeCast S16x1x128 v shapeCasts_S16x128_S16x1x128 (ix3 p 0 k) = v (ix2 p k) :=
  shapeCast_apply v _ _ _ (by
    rw [Shape.rowMajor_val_three, Shape.rowMajor_val_two]
    show p.val * 128 + k.val = ((p.val * 1 + 0) * 128 + k.val); omega)

/-- [128,128] read as [1,128,128]. -/
theorem partner_lead (v : S128x128.Idx → α) (q : Fin 128) (k : Fin 128) :
    shapeCast S1x128x128 v shapeCasts_S128x128_S1x128x128 (ix3 0 q k) = v (ix2 q k) :=
  shapeCast_apply v _ _ _ (by
    rw [Shape.rowMajor_val_three, Shape.rowMajor_val_two]
    show q.val * 128 + k.val = ((0 * 128 + q.val) * 128 + k.val); omega)

/-- [128] read as [1,1,128]. -/
theorem bias_lead (v : S128.Idx → α) (k : Fin 128) :
    shapeCast S1x1x128 v shapeCasts_S128_S1x1x128 (ix3 0 0 k) = v (ix1 k) :=
  shapeCast_apply v _ _ _ (by
    rw [Shape.rowMajor_val_three, Shape.rowMajor_val_one]
    show k.val = ((0 * 1 + 0) * 128 + k.val); omega)

/-- [1,16,128,3] read as [16,128,3]. -/
theorem dist_rows (v : S1x16x128x3.Idx → α) (p : Fin 16) (q : Fin 128) (r : Fin 3) :
    shapeCast S16x128x3 v shapeCasts_S1x16x128x3_S16x128x3 (ix3 p q r) = v (ix4 0 p q r) :=
  shapeCast_apply v _ _ _ (by
    rw [Shape.rowMajor_val_four, Shape.rowMajor_val_three]
    show (((0 * 16 + p.val) * 128 + q.val) * 3 + r.val) = (p.val * 128 + q.val) * 3 + r.val; omega)

/-- [16,128,128] read as [16,128,1,128]. -/
theorem pair_mid (v : S16x128x128.Idx → α) (p : Fin 16) (q : Fin 128) (k : Fin 128) :
    shapeCast S16x128x1x128 v shapeCasts_S16x128x128_S16x128x1x128 (ix4 p q 0 k) = v (ix3 p q k) :=
  shapeCast_apply v _ _ _ (by
    rw [Shape.rowMajor_val_four, Shape.rowMajor_val_three]
    show (p.val * 128 + q.val) * 128 + k.val = (((p.val * 128 + q.val) * 1 + 0) * 128 + k.val); omega)

/-- [16,128,3] read as [16,128,3,1]. -/
theorem dist_last (v : S16x128x3.Idx → α) (p : Fin 16) (q : Fin 128) (r : Fin 3) :
    shapeCast S16x128x3x1 v shapeCasts_S16x128x3_S16x128x3x1 (ix4 p q r 0) = v (ix3 p q r) :=
  shapeCast_apply v _ _ _ (by
    rw [Shape.rowMajor_val_four, Shape.rowMajor_val_three]
    show (p.val * 128 + q.val) * 3 + r.val = (((p.val * 128 + q.val) * 3 + r.val) * 1 + 0); omega)

/-- [16,128,3,128] read as [1,16,128,3,128]. -/
theorem block_lead (v : S16x128x3x128.Idx → α) (p : Fin 16) (q : Fin 128) (r : Fin 3) (k : Fin 128) :
    shapeCast S1x16x128x3x128 v shapeCasts_S16x128x3x128_S1x16x128x3x128 (ix5 0 p q r k) = v (ix4 p q r k) :=
  shapeCast_apply v _ _ _ (by
    rw [Shape.rowMajor_val_five, Shape.rowMajor_val_four]
    show ((p.val * 128 + q.val) * 3 + r.val) * 128 + k.val = ((((0 * 16 + p.val) * 128 + q.val) * 3 + r.val) * 128 + k.val); omega)

/-! ## Stacks repeated along an axis -/

/-- [16,1,128] repeated along the middle axis. -/
theorem own_repeat (v : S16x1x128.Idx → α) (p : Fin 16) (q : Fin 128) (k : Fin 128) :
    broadcastTo S16x128x128 v broadcasts_S16x1x128_S16x128x128 (ix3 p q k) = v (ix3 p 0 k) :=
  broadcastTo_apply v _ _ _ (fun a => match a with
    | ⟨0, _⟩ => by show p.val = if (16 : Nat) = 1 then 0 else p.val; rw [if_neg (by decide)]
    | ⟨1, _⟩ => by show 0 = if (1 : Nat) = 1 then 0 else q.val; rw [if_pos rfl]
    | ⟨2, _⟩ => by show k.val = if (128 : Nat) = 1 then 0 else k.val; rw [if_neg (by decide)])

/-- [1,128,128] repeated along the leading axis. -/
theorem partner_repeat (v : S1x128x128.Idx → α) (p : Fin 16) (q : Fin 128) (k : Fin 128) :
    broadcastTo S16x128x128 v broadcasts_S1x128x128_S16x128x128 (ix3 p q k) = v (ix3 0 q k) :=
  broadcastTo_apply v _ _ _ (fun a => match a with
    | ⟨0, _⟩ => by show 0 = if (1 : Nat) = 1 then 0 else p.val; rw [if_pos rfl]
    | ⟨1, _⟩ => by show q.val = if (128 : Nat) = 1 then 0 else q.val; rw [if_neg (by decide)]
    | ⟨2, _⟩ => by show k.val = if (128 : Nat) = 1 then 0 else k.val; rw [if_neg (by decide)])

/-- [1,1,128] repeated along both leading axes. -/
theorem bias_repeat (v : S1x1x128.Idx → α) (p : Fin 16) (q : Fin 128) (k : Fin 128) :
    broadcastTo S16x128x128 v broadcasts_S1x1x128_S16x128x128 (ix3 p q k) = v (ix3 0 0 k) :=
  broadcastTo_apply v _ _ _ (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show k.val = if (128 : Nat) = 1 then 0 else k.val; rw [if_neg (by decide)])

/-- [16,128,1,128] repeated along the third axis. -/
theorem pair_repeat (v : S16x128x1x128.Idx → α) (p : Fin 16) (q : Fin 128) (r : Fin 3) (k : Fin 128) :
    broadcastTo S16x128x3x128 v broadcasts_S16x128x1x128_S16x128x3x128 (ix4 p q r k) = v (ix4 p q 0 k) :=
  broadcastTo_apply v _ _ _ (fun a => match a with
    | ⟨0, _⟩ => by show p.val = if (16 : Nat) = 1 then 0 else p.val; rw [if_neg (by decide)]
    | ⟨1, _⟩ => by show q.val = if (128 : Nat) = 1 then 0 else q.val; rw [if_neg (by decide)]
    | ⟨2, _⟩ => by show 0 = if (1 : Nat) = 1 then 0 else r.val; rw [if_pos rfl]
    | ⟨3, _⟩ => by show k.val = if (128 : Nat) = 1 then 0 else k.val; rw [if_neg (by decide)])

/-- [16,128,3,1] repeated along the last axis. -/
theorem dist_repeat (v : S16x128x3x1.Idx → α) (p : Fin 16) (q : Fin 128) (r : Fin 3) (k : Fin 128) :
    broadcastTo S16x128x3x128 v broadcasts_S16x128x3x1_S16x128x3x128 (ix4 p q r k) = v (ix4 p q r 0) :=
  broadcastTo_apply v _ _ _ (fun a => match a with
    | ⟨0, _⟩ => by show p.val = if (16 : Nat) = 1 then 0 else p.val; rw [if_neg (by decide)]
    | ⟨1, _⟩ => by show q.val = if (128 : Nat) = 1 then 0 else q.val; rw [if_neg (by decide)]
    | ⟨2, _⟩ => by show r.val = if (3 : Nat) = 1 then 0 else r.val; rw [if_neg (by decide)]
    | ⟨3, _⟩ => by show 0 = if (1 : Nat) = 1 then 0 else k.val; rw [if_pos rfl])

/-! ## The two products -/

/-- The tile's product with the upper half of the weights, at (p, k). -/
theorem own_product (l : FVec Ideal S16x64 .bf16) (rr : FVec Ideal S64x128 .bf16) (p : Fin 16) (k : Fin 128) :
    matmul dot_S16x64_S64x128_S16x128_1_0_0_1_n_n none l rr (constant (F := Ideal) S16x128 .f32 0x00000000#32) (ix2 p k)
      = ∑ f : Fin 64, l (ix2 p f) * rr (ix2 f k) :=
  Cert.Lib.DotEntry.matmul_zero_ix2 dot_S16x64_S64x128_S16x128_1_0_0_1_n_n rfl rfl
    (fun i c => by
      unfold DotDims.lhsIdx
      rw [dif_neg (show ¬(0 : Fin S16x64.rank) ∈ dot_S16x64_S64x128_S16x128_1_0_0_1_n_n.lhsBatch by decide),
        dif_pos (show (0 : Fin S16x64.rank) ∈ dot_S16x64_S64x128_S16x128_1_0_0_1_n_n.lhsNonContracting by decide)]
      rfl)
    (fun i c => dot_S16x64_S64x128_S16x128_1_0_0_1_n_n.lhsIdx_val_of_single rfl i c)
    (fun i c => dot_S16x64_S64x128_S16x128_1_0_0_1_n_n.rhsIdx_val_of_single rfl i c)
    (fun i c => by
      unfold DotDims.rhsIdx
      rw [dif_neg (show ¬(1 : Fin S64x128.rank) ∈ dot_S16x64_S64x128_S16x128_1_0_0_1_n_n.rhsBatch by decide),
        dif_pos (show (1 : Fin S64x128.rank) ∈ dot_S16x64_S64x128_S16x128_1_0_0_1_n_n.rhsNonContracting by decide)]
      rfl)
    l rr p k

/-- All rows' product with the lower half of the weights, at (q, k). -/
theorem partner_product (l : FVec Ideal S128x64 .bf16) (rr : FVec Ideal S64x128 .bf16) (q : Fin 128) (k : Fin 128) :
    matmul dot_S128x64_S64x128_S128x128_1_0_0_1_n_n none l rr (constant (F := Ideal) S128x128 .f32 0x00000000#32) (ix2 q k)
      = ∑ f : Fin 64, l (ix2 q f) * rr (ix2 f k) :=
  Cert.Lib.DotEntry.matmul_zero_ix2 dot_S128x64_S64x128_S128x128_1_0_0_1_n_n rfl rfl
    (fun i c => by
      unfold DotDims.lhsIdx
      rw [dif_neg (show ¬(0 : Fin S128x64.rank) ∈ dot_S128x64_S64x128_S128x128_1_0_0_1_n_n.lhsBatch by decide),
        dif_pos (show (0 : Fin S128x64.rank) ∈ dot_S128x64_S64x128_S128x128_1_0_0_1_n_n.lhsNonContracting by decide)]
      rfl)
    (fun i c => dot_S128x64_S64x128_S128x128_1_0_0_1_n_n.lhsIdx_val_of_single rfl i c)
    (fun i c => dot_S128x64_S64x128_S128x128_1_0_0_1_n_n.rhsIdx_val_of_single rfl i c)
    (fun i c => by
      unfold DotDims.rhsIdx
      rw [dif_neg (show ¬(1 : Fin S64x128.rank) ∈ dot_S128x64_S64x128_S128x128_1_0_0_1_n_n.rhsBatch by decide),
        dif_pos (show (1 : Fin S64x128.rank) ∈ dot_S128x64_S64x128_S128x128_1_0_0_1_n_n.rhsNonContracting by decide)]
      rfl)
    l rr q k

/-! ## The stored value at an entry -/

/-- Entry (p, q, r, k) of the block the body stores. -/
theorem stored_entry (wa wb : Vec Ideal S64x128 .f32) (xi : Vec Ideal S1x16x64 .f32) (xf : Vec Ideal S1x128x64 .f32)
    (bs : Vec Ideal S128 .f32) (ds : Vec Ideal S1x16x128x3 .f32) (p : Fin 16) (q : Fin 128) (r : Fin 3) (k : Fin 128) :
    k0_pay1 (F := Ideal) wa wb xi xf bs ds (ix5 0 p q r k)
      = ((∑ f : Fin 64, xi (ix3 0 p f) * wa (ix2 f k)) + (∑ f : Fin 64, xf (ix3 0 q f) * wb (ix2 f k)) + bs (ix1 k))
          * ds (ix4 0 p q r) := by
  unfold k0_pay1
  refine (block_lead _ p q r k).trans ?_
  refine (mulf_apply _ _ _).trans ?_
  refine congrArg₂ (· * ·) ?_ ?_
  · refine (pair_repeat _ p q r k).trans ?_
    refine (pair_mid _ p q k).trans ?_
    refine (addf_apply _ _ _).trans ?_
    refine congrArg₂ (· + ·) ?_ ?_
    · refine (addf_apply _ _ _).trans ?_
      refine congrArg₂ (· + ·) ?_ ?_
      · refine (own_repeat _ p q k).trans ?_
        refine (own_mid _ p k).trans ?_
        refine (own_product _ _ p k).trans ?_
        refine Finset.sum_congr rfl fun f _ => ?_
        refine congrArg₂ (· * ·) ?_ rfl
        exact tile_rows xi p f
      · refine (partner_repeat _ p q k).trans ?_
        refine (partner_lead _ q k).trans ?_
        refine (partner_product _ _ q k).trans ?_
        refine Finset.sum_congr rfl fun f _ => ?_
        refine congrArg₂ (· * ·) ?_ rfl
        exact all_rows xf q f
    · refine (bias_repeat _ p q k).trans ?_
      exact bias_lead bs k
  · refine (dist_repeat _ p q r k).trans ?_
    refine (dist_last _ p q r).trans ?_
    exact dist_rows ds p q r

end Cert.KernelIdeal.Entry

end
-- ==== Proof.PairSpec.lean ====
/-
  What both programs compute, as one function of the argument arrays, at exact arithmetic.

  For features x[b, i, f] (16 × 128 × 64), distances d[b, i, j, c] (16 × 128 × 128 × 3), weights w[g, k]
  (128 × 128, its upper 64 rows meeting a row's own features and its lower 64 rows the partner row's) and a
  bias[k] (128), the result at (b, i, j, c, k) is

      ((Σ_f x[b,i,f] · w[f,k])  +  (Σ_f x[b,j,f] · w[64+f,k])  +  bias[k])  ·  d[b,i,j,c],

  the two sums over f = 0‥63, the additions associated to the left as written.
-/
import Idealize.ShloMosaic.PureOps.Ideal
import Idealize.ShloMosaic.Lib.ValueIdx

noncomputable section

namespace Cert.PairSpec

open Idealize.ShloMosaic Idealize.ShloMosaic.ValueIdx

/-- Row `f` of the upper half of the weights, -/
def upper (f : Fin 64) : Fin 128 := ⟨f.val, by have := f.isLt; omega⟩
/-- and of the lower half. -/
def lower (f : Fin 64) : Fin 128 := ⟨64 + f.val, by have := f.isLt; omega⟩

/-- The result at (b, i, j, c, k). -/
def entry (x : (⟨3, ![16, 128, 64]⟩ : Shape).Idx → EReal) (d : (⟨4, ![16, 128, 128, 3]⟩ : Shape).Idx → EReal)
    (w : (⟨2, ![128, 128]⟩ : Shape).Idx → EReal) (bias : (⟨1, ![128]⟩ : Shape).Idx → EReal)
    (b : Fin 16) (i j : Fin 128) (c : Fin 3) (k : Fin 128) : EReal :=
  ((∑ f : Fin 64, x (ix3 b i f) * w (ix2 (upper f) k)) + (∑ f : Fin 64, x (ix3 b j f) * w (ix2 (lower f) k)) + bias (ix1 k))
    * d (ix4 b i j c)

/-- The whole result array. -/
def result (x : (⟨3, ![16, 128, 64]⟩ : Shape).Idx → EReal) (d : (⟨4, ![16, 128, 128, 3]⟩ : Shape).Idx → EReal)
    (w : (⟨2, ![128, 128]⟩ : Shape).Idx → EReal) (bias : (⟨1, ![128]⟩ : Shape).Idx → EReal) :
    (⟨5, ![16, 128, 128, 3, 128]⟩ : Shape).Idx → EReal :=
  fun o => entry x d w bias (o 0) (o 1) (o 2) (o 3) (o 4)

end Cert.PairSpec

end
-- ==== Proof.KernelResult.lean ====
/-
  The idealized kernel's result array after its run is the specification of its argument arrays.

  Point t of the 16 × 8 grid writes back the block (batch b, rows 16·i … 16·i+15) of the result, b and i the
  point's two coordinates. Entry (p, q, r, k) of that block is the stored value there (`stored_entry`), whose
  operands are the input blocks of the same point; read through their windows these are the argument arrays at
  batch b and rows 16·i + p (own features, distances) or q (all the batch's rows) — so the block is the
  specification's (`wrote`). The 128 blocks tile the array (`all_covered`), hence the array IS the
  specification (`final`).
-/
import proofs.«145904_j6451040878944_1_alg».proof.Proof.KernelIdealLaunched
import proofs.«145904_j6451040878944_1_alg».proof.Proof.BodyEntry
import proofs.«145904_j6451040878944_1_alg».proof.Proof.PairSpec
import Idealize.ShloMosaic.Lib.Pipeline.Value

set_option maxRecDepth 16384

noncomputable section

namespace Cert.KernelIdeal.Result

open Cert.KernelIdeal Cert.KernelIdeal.Gen Cert.KernelIdeal.Launched
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification at the argument arrays as launched. -/
abbrev whole (c : Dev nD) : Buf (Elt Ideal) ((c : Thread nD τ).loc main_v0) :=
  Cert.PairSpec.result (V m c main_arg0) (V m c main_arg1) (V m c main_arg2) (V m c main_arg3)

theorem zero5 : (![0, 0, 0, 0, 0] : Fin 5 → Nat) = fun _ => 0 := funext fun a => by fin_cases a <;> rfl
theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero1 : (![0] : Fin 1 → Nat) = fun _ => 0 := funext fun a => by fin_cases a <;> rfl

/-- Where each window's block sits at point `t`, against the output's block. -/
theorem blocks_sit : ∀ t : Fin cfg0.N,
    win0_0.index t (0 : Fin 3) = win0_5.index t (0 : Fin 5) ∧ win0_0.index t (1 : Fin 3) = win0_5.index t (1 : Fin 5) ∧ win0_0.index t (2 : Fin 3) = 0
    ∧ win0_1.index t (0 : Fin 3) = win0_5.index t (0 : Fin 5) ∧ win0_1.index t (1 : Fin 3) = 0 ∧ win0_1.index t (2 : Fin 3) = 0
    ∧ win0_2.index t (0 : Fin 4) = win0_5.index t (0 : Fin 5) ∧ win0_2.index t (1 : Fin 4) = win0_5.index t (1 : Fin 5)
    ∧ win0_2.index t (2 : Fin 4) = 0 ∧ win0_2.index t (3 : Fin 4) = 0
    ∧ win0_3.index t (0 : Fin 2) = 0 ∧ win0_3.index t (1 : Fin 2) = 0 ∧ win0_4.index t (0 : Fin 1) = 0
    ∧ win0_5.index t (2 : Fin 5) = 0 ∧ win0_5.index t (3 : Fin 5) = 0 ∧ win0_5.index t (4 : Fin 5) = 0
    ∧ win0_5.index t (0 : Fin 5) ≤ 15 ∧ win0_5.index t (1 : Fin 5) ≤ 7 :=
  (by decide +kernel : ∀ t : Fin grid0.N, _)

/-- Every (batch, tile) pair is some point's output block. -/
theorem every_block : ∀ (b : Fin 16) (i : Fin 8), ∃ t : Fin cfg0.N, win0_5.index t = ![b.val, i.val, 0, 0, 0] :=
  (by decide +kernel : ∀ (b : Fin 16) (i : Fin 8), ∃ t : Fin grid0.N, win0_5.index t = ![b.val, i.val, 0, 0, 0])

section Reads
variable (c : Dev nD) (t : Fin cfg0.N) (p : Fin 16) (q : Fin 128) (r : Fin 3) (k : Fin 128) (f : Fin 64)

/-- The array index of entry (p, q, r, k) of point `t`'s output block. -/
abbrev at5 : S16x128x128x3x128.Idx := ((cfg0.win 5).blk t).view.emb (ix5 0 p q r k)

/-- The tile's row p is row 16·i + p of the batch. -/
theorem own_read : iblk m c 0 t (ix3 0 p f) = V m c main_arg0 (ix3 (at5 t p q r k 0) (at5 t p q r k 1) f) := by
  obtain ⟨e00, e01, e02, e10, e11, e12, e20, e21, e22, e23, e30, e31, e40, e52, e53, e54, b0, b1⟩ := blocks_sit t
  show V m c main_arg0 (((cfg0.win 0).blk t).view.emb (ix3 0 p f)) = _
  refine congrArg _ (funext fun a => Fin.ext ?_)
  match a with
  | ⟨0, _⟩ => show win0_0.index t (0 : Fin 3) * 1 + 1 * 0 = win0_5.index t (0 : Fin 5) * 1 + 1 * 0; omega
  | ⟨1, _⟩ => show win0_0.index t (1 : Fin 3) * 16 + 1 * p.val = win0_5.index t (1 : Fin 5) * 16 + 1 * p.val; omega
  | ⟨2, _⟩ => show win0_0.index t (2 : Fin 3) * 64 + 1 * f.val = f.val; omega

/-- Row q of the all-rows block is row q of the batch. -/
theorem partner_read : iblk m c 1 t (ix3 0 q f) = V m c main_arg0 (ix3 (at5 t p q r k 0) (at5 t p q r k 2) f) := by
  obtain ⟨e00, e01, e02, e10, e11, e12, e20, e21, e22, e23, e30, e31, e40, e52, e53, e54, b0, b1⟩ := blocks_sit t
  show V m c main_arg0 (((cfg0.win 1).blk t).view.emb (ix3 0 q f)) = _
  refine congrArg _ (funext fun a => Fin.ext ?_)
  match a with
  | ⟨0, _⟩ => show win0_1.index t (0 : Fin 3) * 1 + 1 * 0 = win0_5.index t (0 : Fin 5) * 1 + 1 * 0; omega
  | ⟨1, _⟩ => show win0_1.index t (1 : Fin 3) * 128 + 1 * q.val = win0_5.index t (2 : Fin 5) * 128 + 1 * q.val; omega
  | ⟨2, _⟩ => show win0_1.index t (2 : Fin 3) * 64 + 1 * f.val = f.val; omega

/-- The upper half of the staged weights is rows 0‥63 of the weight matrix, -/
theorem upper_read : View.ld (iblk m c 3 t) rWa (ix2 f k) = V m c main_arg2 (ix2 (Cert.PairSpec.upper f) (at5 t p q r k 4)) := by
  obtain ⟨e00, e01, e02, e10, e11, e12, e20, e21, e22, e23, e30, e31, e40, e52, e53, e54, b0, b1⟩ := blocks_sit t
  show V m c main_arg2 (((cfg0.win 3).blk t).view.emb (rWa.idx (ix2 f k))) = _
  refine congrArg _ (funext fun a => Fin.ext ?_)
  match a with
  | ⟨0, _⟩ => show win0_3.index t (0 : Fin 2) * 128 + 1 * (0 + 1 * f.val) = f.val; omega
  | ⟨1, _⟩ => show win0_3.index t (1 : Fin 2) * 128 + 1 * (0 + 1 * k.val) = win0_5.index t (4 : Fin 5) * 128 + 1 * k.val; omega

/-- and the lower half rows 64‥127. -/
theorem lower_read : View.ld (iblk m c 3 t) rWb (ix2 f k) = V m c main_arg2 (ix2 (Cert.PairSpec.lower f) (at5 t p q r k 4)) := by
  obtain ⟨e00, e01, e02, e10, e11, e12, e20, e21, e22, e23, e30, e31, e40, e52, e53, e54, b0, b1⟩ := blocks_sit t
  show V m c main_arg2 (((cfg0.win 3).blk t).view.emb (rWb.idx (ix2 f k))) = _
  refine congrArg _ (funext fun a => Fin.ext ?_)
  match a with
  | ⟨0, _⟩ => show win0_3.index t (0 : Fin 2) * 128 + 1 * (64 + 1 * f.val) = 64 + f.val; omega
  | ⟨1, _⟩ => show win0_3.index t (1 : Fin 2) * 128 + 1 * (0 + 1 * k.val) = win0_5.index t (4 : Fin 5) * 128 + 1 * k.val; omega

/-- The staged bias is the bias. -/
theorem bias_read : iblk m c 4 t (ix1 k) = V m c main_arg3 (ix1 (at5 t p q r k 4)) := by
  obtain ⟨e00, e01, e02, e10, e11, e12, e20, e21, e22, e23, e30, e31, e40, e52, e53, e54, b0, b1⟩ := blocks_sit t
  show V m c main_arg3 (((cfg0.win 4).blk t).view.emb (ix1 k)) = _
  refine congrArg _ (funext fun a => Fin.ext ?_)
  match a with
  | ⟨0, _⟩ => show win0_4.index t (0 : Fin 1) * 128 + 1 * k.val = win0_5.index t (4 : Fin 5) * 128 + 1 * k.val; omega

/-- The distances' tile sits where the output's does. -/
theorem dist_read : iblk m c 2 t (ix4 0 p q r)
    = V m c main_arg1 (ix4 (at5 t p q r k 0) (at5 t p q r k 1) (at5 t p q r k 2) (at5 t p q r k 3)) := by
  obtain ⟨e00, e01, e02, e10, e11, e12, e20, e21, e22, e23, e30, e31, e40, e52, e53, e54, b0, b1⟩ := blocks_sit t
  show V m c main_arg1 (((cfg0.win 2).blk t).view.emb (ix4 0 p q r)) = _
  refine congrArg _ (funext fun a => Fin.ext ?_)
  match a with
  | ⟨0, _⟩ => show win0_2.index t (0 : Fin 4) * 1 + 1 * 0 = win0_5.index t (0 : Fin 5) * 1 + 1 * 0; omega
  | ⟨1, _⟩ => show win0_2.index t (1 : Fin 4) * 16 + 1 * p.val = win0_5.index t (1 : Fin 5) * 16 + 1 * p.val; omega
  | ⟨2, _⟩ => show win0_2.index t (2 : Fin 4) * 128 + 1 * q.val = win0_5.index t (2 : Fin 5) * 128 + 1 * q.val; omega
  | ⟨3, _⟩ => show win0_2.index t (3 : Fin 4) * 3 + 1 * r.val = win0_5.index t (3 : Fin 5) * 3 + 1 * r.val; omega

end Reads

/-- What point `t` writes back is block `t` of the specification. -/
theorem wrote (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after5]
  unfold left
  rw [View.canon_unit_zero zero5]
  simp only [View.ld_unit_zero (S := S1x16x64) zero3, View.ld_unit_zero (S := S1x128x64) zero3, View.ld_unit_zero (S := S128) zero1,
    View.ld_unit_zero (S := S1x16x128x3) zero4]
  funext j
  obtain ⟨z, p, q, r, k, rfl⟩ : ∃ (z : Fin 1) (p : Fin 16) (q : Fin 128) (r : Fin 3) (k : Fin 128), j = ix5 z p q r k :=
    ⟨j 0, j 1, j 2, j 3, j 4, eq_ix5 j⟩
  obtain rfl : z = 0 := Subsingleton.elim _ _
  refine (Cert.KernelIdeal.Entry.stored_entry (View.ld (iblk m c 3 t) rWa) (View.ld (iblk m c 3 t) rWb) (iblk m c 0 t) (iblk m c 1 t)
    (iblk m c 4 t) (iblk m c 2 t) p q r k).trans ?_
  show _ = Cert.PairSpec.entry (V m c main_arg0) (V m c main_arg1) (V m c main_arg2) (V m c main_arg3)
    (at5 t p q r k 0) (at5 t p q r k 1) (at5 t p q r k 2) (at5 t p q r k 3) (at5 t p q r k 4)
  unfold Cert.PairSpec.entry
  refine congrArg₂ (· * ·) (congrArg₂ (· + ·) (congrArg₂ (· + ·) ?_ ?_) ?_) ?_
  · exact Finset.sum_congr rfl fun f _ => congrArg₂ (· * ·) (own_read m c t p q r k f) (upper_read m c t p q r k f)
  · exact Finset.sum_congr rfl fun f _ => congrArg₂ (· * ·) (partner_read m c t p q r k f) (lower_read m c t p q r k f)
  · exact bias_read m c t p q r k
  · exact dist_read m c t p q r k

/-- An index of the result array is in point `t`'s block iff each coordinate is in the block's range. -/
theorem in_block (t : Fin cfg0.N) (i : S16x128x128x3x128.Idx) :
    i ∈ ((cfg0.win 5).blk t).view.set ↔ ∀ a : Fin 5, win0_5.index t a * S1x16x128x3x128.size a ≤ (i a).val
      ∧ (i a).val < win0_5.index t a * S1x16x128x3x128.size a + S1x16x128x3x128.size a := by
  show i ∈ ((View.whole main_v0).slice (win0_5.rect t)).set ↔ _
  rw [View.set_slice_whole, Rect.mem_set_unit]
  exact Iff.rfl

/-- Every index of the result array is in the block of the point (its batch, its row's tile). -/
theorem all_covered (i : S16x128x128x3x128.Idx) :
    ∃ t : Fin cfg0.N, (cfg0.win 5).flush t = true ∧ i ∈ ((cfg0.win 5).blk t).view.set := by
  have h0 : (i 0).val < 16 := (i 0).isLt
  have h1 : (i 1).val < 128 := (i 1).isLt
  have h2 : (i 2).val < 128 := (i 2).isLt
  have h3 : (i 3).val < 3 := (i 3).isLt
  have h4 : (i 4).val < 128 := (i 4).isLt
  obtain ⟨t, ht⟩ := every_block ⟨(i 0).val, h0⟩ ⟨(i 1).val / 16, by omega⟩
  have q0 : win0_5.index t (0 : Fin 5) = (i 0).val := congrFun ht 0
  have q1 : win0_5.index t (1 : Fin 5) = (i 1).val / 16 := congrFun ht 1
  have q2 : win0_5.index t (2 : Fin 5) = 0 := congrFun ht 2
  have q3 : win0_5.index t (3 : Fin 5) = 0 := congrFun ht 3
  have q4 : win0_5.index t (4 : Fin 5) = 0 := congrFun ht 4
  refine ⟨t, flush0_5 t, ?_⟩
  rw [in_block]
  intro a
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 16 ≤ (i 1).val ∧ (i 1).val < win0_5.index t (1 : Fin 5) * 16 + 16; omega
  | ⟨2, _⟩ => show win0_5.index t (2 : Fin 5) * 128 ≤ (i 2).val ∧ (i 2).val < win0_5.index t (2 : Fin 5) * 128 + 128; omega
  | ⟨3, _⟩ => show win0_5.index t (3 : Fin 5) * 3 ≤ (i 3).val ∧ (i 3).val < win0_5.index t (3 : Fin 5) * 3 + 3; omega
  | ⟨4, _⟩ => show win0_5.index t (4 : Fin 5) * 128 ≤ (i 4).val ∧ (i 4).val < win0_5.index t (4 : Fin 5) * 128 + 128; omega

/-- The result array after the run is the specification of the argument arrays. -/
theorem final (c : Dev nD) : (dats m 0 c).arrAt 5 cfg0.N = whole m c :=
  (dats m 0 c).arrAt_eq_of_cover 5 (whole m c) (fun t _ => wrote m c t) all_covered

/-- The idealized kernel's run: it ends with the result array at the specification and the arguments as launched. -/
theorem run : θ_run defs (onTc (τ := τ) (main (F := Ideal))) ⟨m, fun _ => 0, ρ⟩ (fun r => ∀ c : Dev nD,
      r.2.mem ((c.tc : Thread nD τ).loc main_v0)
        = Cert.PairSpec.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m c), (h c).2⟩) (run_named m ρ)

end Cert.KernelIdeal.Result

end
-- ==== Proof.ReferenceIsSpec.lean ====
/-
  The idealized reference's result is the specification of its arguments.

  The reference slices the weights into their upper and lower 64 rows, contracts the features against each over
  the 64 feature columns, lays the two products out along the partner-row and own-row axes, adds them and the
  bias, and multiplies by the distances laid out along the last axis. Read at an entry (b, i, j, c, k), every
  layout step renames coordinates and each contraction is a sum over f — the specification's expression, term
  by term; what is left to check is that the composed index maps are the coordinates the specification names.
-/
import proofs.«145904_j6451040878944_1_alg».proof.Proof.Gen.ReferenceIdeal.Read
import proofs.«145904_j6451040878944_1_alg».proof.Proof.PairSpec

noncomputable section

namespace Cert.ReferenceIdeal.IsSpec

open Cert.ReferenceIdeal Cert.ReferenceIdeal.Gen Cert.ReferenceIdeal.Read
open Idealize.ShloMosaic Idealize.ShloMosaic.TcCoe Idealize.SL.Sem Idealize.ShloMosaic.ValueIdx

/-- The reference's last stage, as a function of the four arguments, is the specification. -/
theorem stage_is_spec (x0 : (⟨S16x128x64, .f32⟩ : BufTy).Contents (Elt Ideal)) (x1 : (⟨S16x128x128x3, .f32⟩ : BufTy).Contents (Elt Ideal))
    (x2 : (⟨S128x128, .f32⟩ : BufTy).Contents (Elt Ideal)) (x3 : (⟨S128, .f32⟩ : BufTy).Contents (Elt Ideal)) :
    val_main_v16 (F := Ideal) x0 x1 x2 x3 = Cert.PairSpec.result x0 x1 x2 x3 := by
  funext i
  rw [val_main_v16_apply, val_main_v14_apply, val_main_v12_apply, val_main_v11_apply, val_main_v8_apply,
    val_main_v6_apply, val_main_v4_apply, val_main_v2_apply, val_main_v7_apply, val_main_v5_apply, val_main_v3_apply,
    val_main_v10_apply, val_main_v9_apply, val_main_v15_apply, val_main_v13_apply]
  simp only [val_main_v0_apply, val_main_v1_apply]
  show _ = Cert.PairSpec.entry x0 x1 x2 x3 (i 0) (i 1) (i 2) (i 3) (i 4)
  unfold Cert.PairSpec.entry
  refine congrArg₂ (· * ·) (congrArg₂ (· + ·) (congrArg₂ (· + ·) ?_ ?_) ?_) ?_
  · refine Finset.sum_congr rfl fun f _ => congrArg₂ (· * ·) (congrArg x0 ?_) (congrArg x2 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · refine Finset.sum_congr rfl fun f _ => congrArg₂ (· * ·) (congrArg x0 ?_) (congrArg x2 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x3 (funext fun a => Fin.ext (by match a with | ⟨0, _⟩ => rfl))
  · exact congrArg x1 (funext fun a => Fin.ext (by match a with | ⟨0, _⟩ => rfl | ⟨1, _⟩ => rfl | ⟨2, _⟩ => rfl | ⟨3, _⟩ => rfl))

end Cert.ReferenceIdeal.IsSpec

end
-- ==== Proof.lean ====
/-
  The certificate of one pair-feature kernel against its jnp reference, over the extended reals.

  Both programs compute, from features x[b,i,f], distances d[b,i,j,c], weights w[g,k] and a bias[k],

      out[b,i,j,c,k] = ((Σ_f x[b,i,f]·w[f,k]) + (Σ_f x[b,j,f]·w[64+f,k]) + bias[k]) · d[b,i,j,c]

  (Proof/PairSpec.lean). The kernel tiles the result over a 16 × 8 grid, one 16-row tile of one batch per point,
  and reads the feature array through two windows at once — a tile's own 16 rows and all 128 rows of its batch.
  The reference forms the two products whole on the host and broadcasts. At exact arithmetic the kernel's
  roundings to bf16 on the way into its two matrix products are identities and a matrix product into a zero
  accumulator is a plain sum, so the two expressions agree term by term, with no law of arithmetic beyond
  reading sums and products entry by entry; in particular nothing here needs the inputs finite.

  The parts:
  * Proof/KernelLaunched.lean, Proof/KernelIdealLaunched.lean — each kernel program's run: it ends, faults
    nowhere, leaves its arguments as launched, and its result array is the 128 write-backs over the entry contents;
    the launch of a region whose windows share an array is Proof/LibSharedLaunch.lean, a matrix product read at an
    entry Proof/LibDotEntry.lean.
  * Proof/BodyEntry.lean — the block one point stores, read at an entry.
  * Proof/KernelResult.lean — hence the idealized kernel's result array is the specification.
  * Proof/ReferenceIsSpec.lean — the reference's last stage is the specification; its run is the generated one.
  The idealization rewrote no operation, so `preserves` has nothing to state.
-/
import proofs.«145904_j6451040878944_1_alg».proof.Defs
import proofs.«145904_j6451040878944_1_alg».proof.Proof.Gen.Kernel
import proofs.«145904_j6451040878944_1_alg».proof.Proof.Gen.KernelIdeal
import proofs.«145904_j6451040878944_1_alg».proof.Proof.Gen.ReferenceIdeal
import proofs.«145904_j6451040878944_1_alg».proof.Proof.Gen.Pre_finite_inputs
import proofs.«145904_j6451040878944_1_alg».proof.Proof.Gen.ReferenceIdeal.Read
import proofs.«145904_j6451040878944_1_alg».proof.Proof.KernelLaunched
import proofs.«145904_j6451040878944_1_alg».proof.Proof.KernelIdealLaunched
import proofs.«145904_j6451040878944_1_alg».proof.Proof.KernelResult
import proofs.«145904_j6451040878944_1_alg».proof.Proof.ReferenceIsSpec
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel := fun m ρ _ => Cert.Kernel.Launched.frame m ρ

/-- So does the idealized kernel. -/
theorem frame_kernel_ideal : Cert.frame_KernelIdeal := fun m ρ _ => Cert.KernelIdeal.Launched.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the four arguments both idealized programs end with the result array at the
    specification of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.IsSpec.stage_is_spec,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
